-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S64x16384 : Shape := ⟨2, ![64, 16384]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S64x16384 : S_.BroadcastsInDim S64x16384 (![] : Fin 0 → Fin S64x16384.rank)
  reducesTo_S64x16384_S_d0_1 : S64x16384.ReducesTo [0, 1] S_

variable [Facts]

def fn {F : FTy → Type} [FloatOps F] (main_arg0 : FVec F S8192x64 .f32) (main_arg1 : FVec F S64x16384 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S64x16384 .f32 := Host.absf main_arg1
  let main_cst_0 : FVec F S_ .f32 := constant S_ .f32 0x7F800000#32
  let main_v5 : FVec F S64x16384 .f32 := broadcastInDim S64x16384 ![] bcast_S_S64x16384 main_cst_0
  let main_v6 : IVec S64x16384 1 := cmpf .olt main_v4 main_v5
  let main_c_1 : IVec S_ 1 := constantI S_ 1 1#1
  let main_v7 : IVec S_ 1 := (fun x v => Host.reduce IntOp.andi x v reducesTo_S64x16384_S_d0_1 h_S_) main_v6 main_c_1
  let main_v8 : IVec S_ 1 := andi main_v3 main_v7
  main_v8
-- ==== Kernel.lean ====
abbrev S8192x64 : Shape := ⟨2, ![8192, 64]⟩
abbrev S64x16384 : Shape := ⟨2, ![64, 16384]⟩
abbrev S_ : Shape := ⟨0, ![]⟩
abbrev S8192 : Shape := ⟨1, ![8192]⟩
abbrev S8192x1 : Shape := ⟨2, ![8192, 1]⟩
abbrev S16384 : Shape := ⟨1, ![16384]⟩
abbrev S1x16384 : Shape := ⟨2, ![1, 16384]⟩
abbrev S8192x16384 : Shape := ⟨2, ![8192, 16384]⟩
abbrev S128x64 : Shape := ⟨2, ![128, 64]⟩
abbrev S128x1 : Shape := ⟨2, ![128, 1]⟩
abbrev S128x16384 : Shape := ⟨2, ![128, 16384]⟩

abbrev nBuf : Space → Nat
  | .hbm => 16
  | .vmem => 8
  | .smem => 0
  | _ => 0

abbrev bufTy : (tb : Table) → Fin (tcTables nBuf tb) → BufTy
  | .hbm, ⟨0, _⟩ => ⟨S8192x64, .f32⟩
  | .hbm, ⟨1, _⟩ => ⟨S64x16384, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S64x16384, .f32⟩
  | .hbm, ⟨7, _⟩ => ⟨S_, .f32⟩
  | .hbm, ⟨8, _⟩ => ⟨S16384, .f32⟩
  | .hbm, ⟨9, _⟩ => ⟨S1x16384, .f32⟩
  | .hbm, ⟨10, _⟩ => ⟨S_, .f32⟩
  | .hbm, ⟨11, _⟩ => ⟨S8192x64, .f32⟩
  | .hbm, ⟨12, _⟩ => ⟨S8192x64, .f32⟩
  | .hbm, ⟨13, _⟩ => ⟨S8192x64, .bf16⟩
  | .hbm, ⟨14, _⟩ => ⟨S64x16384, .bf16⟩
  | .hbm, ⟨15, _⟩ => ⟨S8192x16384, .f32⟩
  | .local _ .vmem, ⟨0, _⟩ => ⟨S128x64, .bf16⟩
  | .local _ .vmem, ⟨1, _⟩ => ⟨S128x64, .bf16⟩
  | .local _ .vmem, ⟨2, _⟩ => ⟨S128x1, .f32⟩
  | .local _ .vmem, ⟨3, _⟩ => ⟨S128x1, .f32⟩
  | .local _ .vmem, ⟨4, _⟩ => ⟨S64x16384, .bf16⟩
  | .local _ .vmem, ⟨5, _⟩ => ⟨S1x16384, .f32⟩
  | .local _ .vmem, ⟨6, _⟩ => ⟨S128x16384, .f32⟩
  | .local _ .vmem, ⟨7, _⟩ => ⟨S128x16384, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x16384 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x16384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  reducesTo_S64x16384_S16384_d0 : S64x16384.ReducesTo [0] S16384
  bcast_S16384_S1x16384_1 : S16384.BroadcastsInDim S1x16384 (![1] : Fin 1 → Fin S1x16384.rank)
  bcast_S_S8192x64 : S_.BroadcastsInDim S8192x64 (![] : Fin 0 → Fin S8192x64.rank)
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64x16384_S64x16384_0_0 : ∀ a, (![0, 0] : Fin 2 → Nat) a + S64x16384.size a ≤ S64x16384.size a
  h_S64x16384 : 0 < S64x16384.numel
  shapeCasts_S64x16384_S64x16384 : S64x16384.ShapeCasts S64x16384
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x16384_S1x16384_0_0 : ∀ a, (![0, 0] : Fin 2 → Nat) a + S1x16384.size a ≤ S1x16384.size a
  h_S1x16384 : 0 < S1x16384.numel
  shapeCasts_S1x16384_S1x16384 : S1x16384.ShapeCasts S1x16384
  broadcasts_S128x1_S128x16384 : S128x1.Broadcasts S128x16384
  broadcasts_S1x16384_S128x16384 : S1x16384.Broadcasts S128x16384
  inb_S128x16384_S128x16384_0_0 : ∀ a, (![0, 0] : Fin 2 → Nat) a + S128x16384.size a ≤ S128x16384.size a
  h_S128x16384 : 0 < S128x16384.numel
  dot_S128x64_S64x16384_S128x16384_1_0_0_1_n_n_wf : DotDims.WF S128x64 S64x16384 S128x16384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S8192x64.size a
  hwx0_0 : ∀ i : grid0.Coords, EltTy.bits .bf16 = 32 ∨ (Rect.block (s := S8192x64) S128x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .f32 = 32 ∨ (Rect.block (s := S8192x1) S128x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16384.size a ≤ S64x16384.size a
  hwx0_2 : ∀ i : grid0.Coords, EltTy.bits .bf16 = 32 ∨ (Rect.block (s := S64x16384) S64x16384.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16384.size a ≤ S1x16384.size a
  hwx0_3 : ∀ i : grid0.Coords, EltTy.bits .f32 = 32 ∨ (Rect.block (s := S1x16384) S1x16384.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x16384.size a ≤ S8192x16384.size a
  hwx0_4 : ∀ i : grid0.Coords, EltTy.bits .f32 = 32 ∨ (Rect.block (s := S8192x16384) S128x16384.size (cc0_transform_4 i) (hinb0_4 i)).WholeWords (EltTy.packing .f32)

variable [Facts₀]

def dot_S128x64_S64x16384_S128x16384_1_0_0_1_n_n : DotDims S128x64 S64x16384 S128x16384 where
  lhsContracting := [1]
  rhsContracting := [0]
  lhsNonContracting := [0]
  rhsNonContracting := [1]
  lhsBatch := []
  rhsBatch := []
  wf := dot_S128x64_S64x16384_S128x16384_1_0_0_1_n_n_wf

abbrev win0_0 : Pipeline.Window sig grid0 :=
  Pipeline.Window.ofSpec (Memref.whole main_v8) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S64x16384.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x16384.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x16384.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x64 : Shape := ⟨2, ![8192, 64]⟩
abbrev S64x16384 : Shape := ⟨2, ![64, 16384]⟩
abbrev S_ : Shape := ⟨0, ![]⟩
abbrev S8192 : Shape := ⟨1, ![8192]⟩
abbrev S8192x1 : Shape := ⟨2, ![8192, 1]⟩
abbrev S16384 : Shape := ⟨1, ![16384]⟩
abbrev S1x16384 : Shape := ⟨2, ![1, 16384]⟩
abbrev S8192x16384 : Shape := ⟨2, ![8192, 16384]⟩

abbrev nBuf : Space → Nat
  | .hbm => 18
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S64x16384, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S64x16384, .f32⟩
  | .hbm, ⟨7, _⟩ => ⟨S_, .f32⟩
  | .hbm, ⟨8, _⟩ => ⟨S16384, .f32⟩
  | .hbm, ⟨9, _⟩ => ⟨S1x16384, .f32⟩
  | .hbm, ⟨10, _⟩ => ⟨S8192x16384, .f32⟩
  | .hbm, ⟨11, _⟩ => ⟨S8192x16384, .f32⟩
  | .hbm, ⟨12, _⟩ => ⟨S8192x16384, .f32⟩
  | .hbm, ⟨13, _⟩ => ⟨S8192x16384, .f32⟩
  | .hbm, ⟨14, _⟩ => ⟨S_, .f32⟩
  | .hbm, ⟨15, _⟩ => ⟨S8192x16384, .f32⟩
  | .hbm, ⟨16, _⟩ => ⟨S8192x16384, .f32⟩
  | .hbm, ⟨17, _⟩ => ⟨S8192x16384, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  reducesTo_S64x16384_S16384_d0 : S64x16384.ReducesTo [0] S16384
  bcast_S16384_S1x16384_1 : S16384.BroadcastsInDim S1x16384 (![1] : Fin 1 → Fin S1x16384.rank)
  bcast_S8192x1_S8192x16384_0_1 : S8192x1.BroadcastsInDim S8192x16384 (![0, 1] : Fin 2 → Fin S8192x16384.rank)
  bcast_S1x16384_S8192x16384_0_1 : S1x16384.BroadcastsInDim S8192x16384 (![0, 1] : Fin 2 → Fin S8192x16384.rank)
  bcast_S_S8192x16384 : S_.BroadcastsInDim S8192x16384 (![] : Fin 0 → Fin S8192x16384.rank)
  dot_S8192x64_S64x16384_S8192x16384_1_0_0_1_n_n_wf : DotDims.WF S8192x64 S64x16384 S8192x16384 [1] [0] [0] [1] [] []

variable [Facts₀]

def dot_S8192x64_S64x16384_S8192x16384_1_0_0_1_n_n : DotDims S8192x64 S64x16384 S8192x16384 where
  lhsContracting := [1]
  rhsContracting := [0]
  lhsNonContracting := [0]
  rhsNonContracting := [1]
  lhsBatch := []
  rhsBatch := []
  wf := dot_S8192x64_S64x16384_S8192x16384_1_0_0_1_n_n_wf

class Facts : Prop extends Facts₀ where

variable [Facts]
-- ==== Proof.SqDistLaw.lean ====
/-
  Squared Euclidean distances between the rows of `x` (8192 × 64) and the columns of `w` (64 × 16384), in the
  expansion ‖x_b − w_n‖² = ‖x_b‖² + ‖w_n‖² − 2 ⟨x_b, w_n⟩, written two ways over the extended reals:

  * `folded`: the squared norms plus the inner product of the rows of an array `a` with the columns of `w`
    (the factor −2 already multiplied into `a = −2 · x`);
  * `expanded`: the squared norms minus `c` times the inner product of `x` with `w`.

  The squared norms enter both forms as the same two arrays `r` (one entry per row) and `s` (one entry per column), so
  nothing is asked of them. The two forms agree when every entry of `x` and `w` is a real number: the scalar
  leaves the finite sum by distributivity, which fails on the extended reals only at the infinities.
-/
import Idealize.ShloMosaic.PureOps.Ideal
import Idealize.ShloMosaic.Lib.ValueIdx

noncomputable section

open scoped BigOperators

namespace Cert.SqDist

open Idealize.ShloMosaic Idealize.ShloMosaic.ValueIdx

/-- The shapes: the points `x`, the codebook `w`, one squared norm per row, one per column, the distances. -/
abbrev SX : Shape := ⟨2, ![8192, 64]⟩
abbrev SW : Shape := ⟨2, ![64, 16384]⟩
abbrev SR : Shape := ⟨2, ![8192, 1]⟩
abbrev SC : Shape := ⟨2, ![1, 16384]⟩
abbrev SO : Shape := ⟨2, ![8192, 16384]⟩

/-- The inner product of row `b` of `a` with column `n` of `w`. -/
def cross (a : SX.Idx → EReal) (w : SW.Idx → EReal) (b : Fin 8192) (n : Fin 16384) : EReal :=
  ∑ k : Fin 64, a (ix2 b k) * w (ix2 k n)

/-- Squared norms plus the inner product of `a`'s rows with `w`'s columns. -/
def folded (r : SR.Idx → EReal) (s : SC.Idx → EReal) (a : SX.Idx → EReal) (w : SW.Idx → EReal) : SO.Idx → EReal :=
  fun i => (r (ix2 (i 0) 0) + s (ix2 0 (i 1))) + cross a w (i 0) (i 1)

/-- Squared norms minus `c` times the inner product of `x`'s rows with `w`'s columns. -/
def expanded (c : EReal) (r : SR.Idx → EReal) (s : SC.Idx → EReal) (x : SX.Idx → EReal) (w : SW.Idx → EReal) :
    SO.Idx → EReal :=
  fun i => (r (ix2 (i 0) 0) + s (ix2 0 (i 1))) - c * cross x w (i 0) (i 1)

/-- The coercion of the reals into the extended reals commutes with finite sums. -/
theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- A real scalar multiplied into every entry of a real array leaves the inner product as a factor. -/
theorem cross_scale (c : ℝ) (x : SX.Idx → EReal) (w : SW.Idx → EReal)
    (hx : ∀ i, ∃ v : ℝ, x i = (v : EReal)) (hw : ∀ i, ∃ v : ℝ, w i = (v : EReal)) (b : Fin 8192) (n : Fin 16384) :
    cross (fun i => (c : EReal) * x i) w b n = (c : EReal) * cross x w b n := by
  choose xr hxr using hx
  choose wr hwr using hw
  unfold cross
  simp only [hxr, hwr, ← EReal.coe_mul, ← coe_sum]
  refine congrArg _ ?_
  rw [Finset.mul_sum]
  exact Finset.sum_congr rfl fun k _ => mul_assoc _ _ _

/-- On real inputs, adding the inner product with `−2 · x` is subtracting twice the inner product with `x`. -/
theorem folded_eq_expanded (r : SR.Idx → EReal) (s : SC.Idx → EReal) (x : SX.Idx → EReal) (w : SW.Idx → EReal)
    (hx : ∀ i, ∃ v : ℝ, x i = (v : EReal)) (hw : ∀ i, ∃ v : ℝ, w i = (v : EReal)) :
    folded r s (fun i => ((-2 : ℝ) : EReal) * x i) w = expanded ((2 : ℝ) : EReal) r s x w := by
  funext i
  obtain ⟨p, q, rfl⟩ : ∃ (p : Fin 8192) (q : Fin 16384), i = ix2 p q := ⟨i 0, i 1, eq_ix2 i⟩
  show (r (ix2 p 0) + s (ix2 0 q)) + cross (fun i => ((-2 : ℝ) : EReal) * x i) w p q
    = (r (ix2 p 0) + s (ix2 0 q)) - ((2 : ℝ) : EReal) * cross x w p q
  rw [cross_scale (-2) x w hx hw p q, sub_eq_add_neg, EReal.coe_neg, neg_mul]

end Cert.SqDist

end
-- ==== Proof.Consts.lean ====
/-
  The float constants the two programs spell, as the extended reals their bit patterns denote: `−2.0` (the factor
  multiplied into `x` before the matrix product), `2.0` (the factor of the subtracted inner product) and the
  positive infinity the precondition compares against.
-/
import Idealize.ShloMosaic.PureOps.Ideal

noncomputable section

namespace Cert.SqDist.Consts

open Idealize.ShloMosaic

/-- The pattern of `−2.0` denotes the real `−2`. -/
theorem ofBits_neg_two : Ideal.ofBits .f32 0xC0000000#32 = ((-2 : ℝ) : EReal) := by
  simp [Ideal.ofBits, Ideal.ieee, -EReal.coe_mul]; norm_num

/-- The pattern of `2.0` denotes the real `2`. -/
theorem ofBits_two : Ideal.ofBits .f32 0x40000000#32 = ((2 : ℝ) : EReal) := by
  simp [Ideal.ofBits, Ideal.ieee, -EReal.coe_mul]; norm_num

/-- The pattern of `+inf` denotes the top of the extended reals. -/
theorem ofBits_inf : Ideal.ofBits .f32 0x7F800000#32 = (⊤ : EReal) := by
  simp [Ideal.ofBits, Ideal.ieee]

end Cert.SqDist.Consts

end
-- ==== Proof.Finite.lean ====
/-
  What the precondition gives: it states, for each of the two inputs, that every entry's absolute value lies strictly
  below `+inf`. On the extended reals the absolute value of either infinity is the top element, so an entry
  satisfying the comparison is a real number.
-/
import proofs.«111386_j15418932592734_2_alg».proof.Pre_finite_inputs
import proofs.«111386_j15418932592734_2_alg».proof.Proof.Gen.Pre_finite_inputs
import proofs.«111386_j15418932592734_2_alg».proof.Proof.Consts
import Idealize.ShloMosaic.Lib.ReduceAll
import Idealize.ShloMosaic.Lib.ValueIdx
import Idealize.ShloMosaic.PureOps.Ideal

noncomputable section

namespace Cert.SqDist.Finite

open Idealize.ShloMosaic Idealize.ShloMosaic.ValueIdx Cert.Pre_finite_inputs Cert.Pre_finite_inputs.Gen

/-- An extended real whose absolute value is strictly below the pattern of `+inf` is a real number. -/
theorem real_of_abs_lt_inf (a : EReal)
    (h : Ideal.cmp .olt (max a (-a)) (Ideal.ofBits .f32 0x7F800000#32) = 1#1) : ∃ v : ℝ, a = (v : EReal) := by
  rw [Consts.ofBits_inf] at h
  induction a using EReal.rec with
  | bot => simp [Ideal.cmp] at h
  | top => simp [Ideal.cmp] at h
  | coe v => exact ⟨v, rfl⟩

/-- Under the precondition every entry of both inputs is a real number. -/
theorem real_of_pre (x : FVec Ideal S8192x64 .f32) (w : FVec Ideal S64x16384 .f32)
    (h : Cert.Pre_finite_inputs.fn (F := Ideal) x w = fun _ => 1#1) :
    (∀ i, ∃ v : ℝ, x i = (v : EReal)) ∧ (∀ i, ∃ v : ℝ, w i = (v : EReal)) := by
  have h0 := congrFun h ix0
  dsimp only [Cert.Pre_finite_inputs.fn] at h0
  obtain ⟨h1, h2⟩ := IntOp.andi_eq_one.1 h0
  haveI : Subsingleton S_.Idx := ⟨fun a b => funext fun d => d.elim0⟩
  refine ⟨fun i => ?_, fun i => ?_⟩
  · exact real_of_abs_lt_inf (x i) (Host.reduce_andi_all _ _ _ _ _ h1 i)
  · exact real_of_abs_lt_inf (w i) (Host.reduce_andi_all _ _ _ _ _ h2 i)

end Cert.SqDist.Finite

end
-- ==== Proof.RefSide.lean ====
/-
  The reference program's result, read index by index: at (b, n) it is the squared norm of row b of `x` plus the squared
  norm of column n of `w`, minus the constant `2.0` times the inner product of that row with that column. The two
  squared-norm arrays are kept as the stages that compute them; only their broadcast to the full shape is read.
-/
import proofs.«111386_j15418932592734_2_alg».proof.Proof.Gen.ReferenceIdeal.Read
import proofs.«111386_j15418932592734_2_alg».proof.Proof.SqDistLaw

noncomputable section

namespace Cert.SqDist.RefSide

open Idealize.ShloMosaic Idealize.ShloMosaic.ValueIdx Cert.ReferenceIdeal Cert.ReferenceIdeal.Gen Cert.ReferenceIdeal.Read

/-- The reference's last stage is the expanded form over the two squared-norm stages. -/
theorem result_eq (x0 : (⟨S8192x64, .f32⟩ : BufTy).Contents (Elt Ideal)) (x1 : (⟨S64x16384, .f32⟩ : BufTy).Contents (Elt Ideal)) :
    val_main_v12 (F := Ideal) x0 x1
      = Cert.SqDist.expanded (Ideal.ofBits .f32 0x40000000#32) (val_main_v2 (F := Ideal) x0) (val_main_v5 (F := Ideal) x1) x0 x1 := by
  funext i
  obtain ⟨p, q, rfl⟩ : ∃ (p : Fin 8192) (q : Fin 16384), i = ix2 p q := ⟨i 0, i 1, eq_ix2 i⟩
  have e7 : idx_main_v7 (ix2 p q) = ix2 p 0 :=
    funext fun a => Fin.ext (by match a with | ⟨0, _⟩ => rfl | ⟨1, _⟩ => rfl)
  have e8 : idx_main_v8 (ix2 p q) = ix2 0 q :=
    funext fun a => Fin.ext (by match a with | ⟨0, _⟩ => rfl | ⟨1, _⟩ => rfl)
  have el : ∀ k : Fin 64, lidx_main_v6 (ix2 p q) k = ix2 p k := fun k =>
    funext fun a => Fin.ext (by match a with | ⟨0, _⟩ => rfl | ⟨1, _⟩ => rfl)
  have er : ∀ k : Fin 64, ridx_main_v6 (ix2 p q) k = ix2 k q := fun k =>
    funext fun a => Fin.ext (by match a with | ⟨0, _⟩ => rfl | ⟨1, _⟩ => rfl)
  rw [val_main_v12_apply, val_main_v9_apply, val_main_v11_apply, val_main_v7_apply, val_main_v8_apply,
    val_main_v10_apply, val_main_v6_apply, val_main_cst_1_apply]
  simp only [e7, e8, el, er, Ideal.subf_def, Ideal.addf_def, Ideal.mulf_def, Ideal.ofBits_def]
  rfl

end Cert.SqDist.RefSide

end
-- ==== Proof.HostPrefix.lean ====
/-
  The four arrays the kernel's windows read, as the launch finds them: they are written by the host operations that come
  before the launch. The left operand of the matrix product is the constant `−2.0` times `x` (its rounding to a narrower
  format is the identity on the extended reals), the right operand is `w`, and the two norm arrays are the sum of
  squares along each row of `x` (as a column) and along each column of `w` (as a row).
-/
import proofs.«111386_j15418932592734_2_alg».proof.Proof.Gen.KernelIdeal.Frame
import Idealize.ShloMosaic.Lib.StableHlo.Run
import Idealize.ShloMosaic.Lib.ValueIdx

noncomputable section

namespace Cert.SqDist.HostPrefix

open Idealize.ShloMosaic Idealize.ShloMosaic.TcCoe Idealize.ShloMosaic.ValueIdx Idealize.SL.Sem
open Idealize.ShloMosaic.StableHlo Cert.KernelIdeal Cert.KernelIdeal.Gen

variable (m : (ℓ : Loc nD τ sig) → Buf (Elt Ideal) ℓ)

/-- The left operand of the matrix product: `−2.0 · x`, entry by entry. -/
theorem scaled (c : Dev nD) : (V m c main_v8 : S8192x64.Idx → EReal)
    = fun i => Ideal.ofBits .f32 0xC0000000#32 * (m ((c : Thread nD τ).loc main_arg0) : S8192x64.Idx → EReal) i := by
  have e : (V m c main_v8 : S8192x64.Idx → EReal)
      = truncf .bf16 (mulf (broadcastInDim S8192x64 ![] bcast_S_S8192x64 (constant (F := Ideal) S_ .f32 0xC0000000#32))
          (m ((c : Thread nD τ).loc main_arg0))) bitsLt_bf16_f32 := by
    dsimp only [Gen.V, Gen.hostOps0]; after_results
  rw [e]; rfl

/-- The right operand of the matrix product: `w`. -/
theorem codebook (c : Dev nD) : (V m c main_v9 : S64x16384.Idx → EReal)
    = (m ((c : Thread nD τ).loc main_arg1) : S64x16384.Idx → EReal) := by
  have e : (V m c main_v9 : S64x16384.Idx → EReal)
      = (truncf .bf16 (m ((c : Thread nD τ).loc main_arg1) : FVec Ideal S64x16384 .f32) bitsLt_bf16_f32
          : FVec Ideal S64x16384 .bf16) := by
    dsimp only [Gen.V, Gen.hostOps0]; after_results
  rw [e]; rfl

/-- The column of squared row norms of `x`, as the host operations compute it. -/
theorem rowNorms (c : Dev nD) : (V m c main_v2 : S8192x1.Idx → EReal)
    = broadcastInDim S8192x1 ![0] bcast_S8192_S8192x1_0
        (Host.reduceAdd (mulf (m ((c : Thread nD τ).loc main_arg0)) (m ((c : Thread nD τ).loc main_arg0)))
          (constant (F := Ideal) S_ .f32 0x00000000#32) reducesTo_S8192x64_S8192_d1 h_S_) := by
  dsimp only [Gen.V, Gen.hostOps0]; after_results

/-- The row of squared column norms of `w`, as the host operations compute it. -/
theorem colNorms (c : Dev nD) : (V m c main_v5 : S1x16384.Idx → EReal)
    = broadcastInDim S1x16384 ![1] bcast_S16384_S1x16384_1
        (Host.reduceAdd (mulf (m ((c : Thread nD τ).loc main_arg1)) (m ((c : Thread nD τ).loc main_arg1)))
          (constant (F := Ideal) S_ .f32 0x00000000#32) reducesTo_S64x16384_S16384_d0 h_S_) := by
  dsimp only [Gen.V, Gen.hostOps0]; after_results

end Cert.SqDist.HostPrefix

end
-- ==== Proof.Payload.lean ====
/-
  The kernel body's one stored value, read at an entry (p, q) of its 128 × 16384 block: the block's column of row norms
  at row p, plus its row of column norms at column q, plus the product of row p of the 128 × 64 left block with column q
  of the 64 × 16384 right block — a matrix product into a zero accumulator is the plain sum over the contracted axis.
-/
import proofs.«111386_j15418932592734_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.SqDist.Payload

open Idealize.ShloMosaic Idealize.ShloMosaic.ValueIdx Cert.KernelIdeal Cert.KernelIdeal.Gen

/-- A column vector broadcast along the lanes reads its row's entry. -/
theorem bcast_col (v : FVec Ideal S128x1 .f32) (h : S128x1.Broadcasts S128x16384) (p : Fin 128) (q : Fin 16384) :
    broadcastTo S128x16384 v h (ix2 p q) = v (ix2 p 0) :=
  broadcastTo_apply v h (ix2 p q) (ix2 p 0) (fun a => match a with
    | ⟨0, _⟩ => by show p.val = if (128 : Nat) = 1 then 0 else p.val; rw [if_neg (by decide)]
    | ⟨1, _⟩ => by show 0 = if (1 : Nat) = 1 then 0 else q.val; rw [if_pos rfl])

/-- A row vector broadcast along the sublanes reads its column's entry. -/
theorem bcast_row (v : FVec Ideal S1x16384 .f32) (h : S1x16384.Broadcasts S128x16384) (p : Fin 128) (q : Fin 16384) :
    broadcastTo S128x16384 v h (ix2 p q) = v (ix2 0 q) :=
  broadcastTo_apply v h (ix2 p q) (ix2 0 q) (fun a => match a with
    | ⟨0, _⟩ => by show 0 = if (1 : Nat) = 1 then 0 else p.val; rw [if_pos rfl]
    | ⟨1, _⟩ => by show q.val = if (16384 : Nat) = 1 then 0 else q.val; rw [if_neg (by decide)])

/-! The matrix product's operand indices at an output index and a contraction index: the left operand is read at
    (output row, contraction), the right at (contraction, output column). -/

theorem lhs0 (i : S128x16384.Idx) (k : dot_S128x64_S64x16384_S128x16384_1_0_0_1_n_n.contr.Idx) : (dot_S128x64_S64x16384_S128x16384_1_0_0_1_n_n.lhsIdx i k 0).val = (i 0).val := by
  unfold DotDims.lhsIdx
  rw [dif_neg (show ¬(0 : Fin S128x64.rank) ∈ dot_S128x64_S64x16384_S128x16384_1_0_0_1_n_n.lhsBatch by decide),
    dif_pos (show (0 : Fin S128x64.rank) ∈ dot_S128x64_S64x16384_S128x16384_1_0_0_1_n_n.lhsNonContracting by decide)]
  rfl
theorem lhs1 (i : S128x16384.Idx) (k : dot_S128x64_S64x16384_S128x16384_1_0_0_1_n_n.contr.Idx) : (dot_S128x64_S64x16384_S128x16384_1_0_0_1_n_n.lhsIdx i k 1).val = (k ⟨0, by decide⟩).val :=
  dot_S128x64_S64x16384_S128x16384_1_0_0_1_n_n.lhsIdx_val_of_single rfl i k
theorem rhs0 (i : S128x16384.Idx) (k : dot_S128x64_S64x16384_S128x16384_1_0_0_1_n_n.contr.Idx) : (dot_S128x64_S64x16384_S128x16384_1_0_0_1_n_n.rhsIdx i k 0).val = (k ⟨0, by decide⟩).val :=
  dot_S128x64_S64x16384_S128x16384_1_0_0_1_n_n.rhsIdx_val_of_single rfl i k
theorem rhs1 (i : S128x16384.Idx) (k : dot_S128x64_S64x16384_S128x16384_1_0_0_1_n_n.contr.Idx) : (dot_S128x64_S64x16384_S128x16384_1_0_0_1_n_n.rhsIdx i k 1).val = (i 1).val := by
  unfold DotDims.rhsIdx
  rw [dif_neg (show ¬(1 : Fin S64x16384.rank) ∈ dot_S128x64_S64x16384_S128x16384_1_0_0_1_n_n.rhsBatch by decide),
    dif_pos (show (1 : Fin S64x16384.rank) ∈ dot_S128x64_S64x16384_S128x16384_1_0_0_1_n_n.rhsNonContracting by decide)]
  rfl

/-- The matrix product into the zero accumulator, at (p, q): the sum over the 64 contracted positions. -/
theorem matmul_at (l : FVec Ideal S128x64 .bf16) (r : FVec Ideal S64x16384 .bf16) (p : Fin 128) (q : Fin 16384) :
    matmul dot_S128x64_S64x16384_S128x16384_1_0_0_1_n_n none l r (constant (F := Ideal) S128x16384 .f32 0x00000000#32) (ix2 p q)
      = ∑ k : Fin 64, l (ix2 p k) * r (ix2 k q) := by
  refine (Ideal.matmul_constant_zero_apply dot_S128x64_S64x16384_S128x16384_1_0_0_1_n_n none l r (ix2 p q)).trans ?_
  rw [← Equiv.sum_comp (contrEquiv1 dot_S128x64_S64x16384_S128x16384_1_0_0_1_n_n 64 rfl rfl).symm]
  refine Finset.sum_congr rfl fun k _ => ?_
  have hk := contrEquiv1_symm_val dot_S128x64_S64x16384_S128x16384_1_0_0_1_n_n 64 rfl rfl k
  have el : dot_S128x64_S64x16384_S128x16384_1_0_0_1_n_n.lhsIdx (ix2 p q) ((contrEquiv1 dot_S128x64_S64x16384_S128x16384_1_0_0_1_n_n 64 rfl rfl).symm k) = ix2 p k :=
    funext fun a => Fin.ext (by
      match a with
      | ⟨0, _⟩ => exact lhs0 _ _
      | ⟨1, _⟩ => exact (lhs1 _ _).trans hk)
  have er : dot_S128x64_S64x16384_S128x16384_1_0_0_1_n_n.rhsIdx (ix2 p q) ((contrEquiv1 dot_S128x64_S64x16384_S128x16384_1_0_0_1_n_n 64 rfl rfl).symm k) = ix2 k q :=
    funext fun a => Fin.ext (by
      match a with
      | ⟨0, _⟩ => exact (rhs0 _ _).trans hk
      | ⟨1, _⟩ => exact rhs1 _ _)
  rw [el, er]

/-- The body's stored value at (p, q). -/
theorem pay_apply (v0 : Vec Ideal S128x64 .bf16) (v2 : Vec Ideal S64x16384 .bf16) (v5 : Vec Ideal S128x1 .f32)
    (v7 : Vec Ideal S1x16384 .f32) (p : Fin 128) (q : Fin 16384) :
    k0_pay1 (F := Ideal) v0 v2 v5 v7 (ix2 p q)
      = (v5 (ix2 p 0) + v7 (ix2 0 q)) + ∑ k : Fin 64, v0 (ix2 p k) * v2 (ix2 k q) := by
  unfold k0_pay1
  simp only [shapeCast_self]
  show (broadcastTo S128x16384 v5 _ (ix2 p q) + broadcastTo S128x16384 v7 _ (ix2 p q))
      + matmul dot_S128x64_S64x16384_S128x16384_1_0_0_1_n_n none v0 v2 (constant (F := Ideal) S128x16384 .f32 0x00000000#32) (ix2 p q) = _
  rw [bcast_col, bcast_row, matmul_at]

end Cert.SqDist.Payload

end
-- ==== Proof.Blocks.lean ====
/-
  From blocks to the whole array. The launch runs over 64 grid points; point t reads rows 128·t … 128·t + 127 of the
  scaled points and of the column of row norms, the whole codebook and the whole row of column norms, and writes rows
  128·t … 128·t + 127 of the output. What it writes is that band of ONE whole-array function of the four arrays the
  windows read — squared norms plus inner product, `Cert.SqDist.folded` — because each entry of the band depends only on
  its own row of the left operand and its own column of the right one. The 64 bands cover the output (row r lies in band
  r / 128), so after the run the output array is that function.
-/
import proofs.«111386_j15418932592734_2_alg».proof.Proof.Gen.KernelIdeal.Value
import proofs.«111386_j15418932592734_2_alg».proof.Proof.Payload
import proofs.«111386_j15418932592734_2_alg».proof.Proof.SqDistLaw
import Idealize.ShloMosaic.Lib.Pipeline.Value
import Idealize.ShloMosaic.Lib.ValueIdx

noncomputable section

open scoped BigOperators

namespace Cert.SqDist.Blocks

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Value

variable (m : (ℓ : Loc nD τ sig) → Buf (Elt Ideal) ℓ) (ρ : Dev nD → PrngReg)

theorem zero_offsets : (![0, 0] : Fin 2 → Nat) = fun _ => 0 := funext fun a => by fin_cases a <;> rfl

/-- The output array after the run, as one function of the four arrays the windows read. -/
abbrev result (c : Dev nD) : S8192x16384.Idx → EReal :=
  Cert.SqDist.folded (V m c main_v2) (V m c main_v5) (V m c main_v8) (V m c main_v9)

/-- The printed index maps over the 64 grid points: the two row-banded inputs move with the output's band, the two
    resident inputs stay at block 0, and the output's band number is the point's number. -/
theorem band_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What point `t` writes back is band `t` of `result`. -/
theorem flushed_eq (c : Dev nD) (t : Fin cfg0.N) :
    (dats m 0 c).flushed 4 t = ((cfg0.win 4).blk t).view.read (Elt Ideal) (result m c) := by
  rw [flushed4]
  unfold out0_4
  rw [View.canon_unit_zero zero_offsets]
  simp only [View.ld_unit_zero (S := S128x64) zero_offsets, View.ld_unit_zero (S := S64x16384) zero_offsets,
    View.ld_unit_zero (S := S128x1) zero_offsets, View.ld_unit_zero (S := S1x16384) zero_offsets]
  obtain ⟨e00, e01, e10, e11, e20, e21, e30, e31, e40, e41⟩ := band_facts t
  funext j
  obtain ⟨p, q, rfl⟩ : ∃ (p : Fin 128) (q : Fin 16384), j = ix2 p q := ⟨j 0, j 1, eq_ix2 j⟩
  have hx : (cfg0.win 4).xinj (grid0.coords t) (ix2 p q) = ix2 p q :=
    funext fun a => Fin.ext (by match a with | ⟨0, _⟩ => rfl | ⟨1, _⟩ => rfl)
  show k0_pay1 (iblk m c 0 t) (iblk m c 2 t) (iblk m c 1 t) (iblk m c 3 t) ((cfg0.win 4).xinj (grid0.coords t) (ix2 p q))
    = result m c (((cfg0.win 4).blk t).view.emb (ix2 p q))
  rw [hx]
  refine (Payload.pay_apply (iblk m c 0 t) (iblk m c 2 t) (iblk m c 1 t) (iblk m c 3 t) p q).trans ?_
  show _ = Cert.SqDist.folded (V m c main_v2) (V m c main_v5) (V m c main_v8) (V m c main_v9)
      (((cfg0.win 4).blk t).view.emb (ix2 p q))
  unfold Cert.SqDist.folded Cert.SqDist.cross
  refine congrArg₂ (· + ·) (congrArg₂ (· + ·) ?_ ?_) (Finset.sum_congr rfl fun k _ => congrArg₂ (· * ·) ?_ ?_)
  · -- the band's column of row norms: row p of the band is row 128·t + p of the array
    show V m c main_v2 (((cfg0.win 1).blk t).view.emb (ix2 p 0)) = _
    refine congrArg (V m c main_v2 : S8192x1.Idx → EReal) (funext fun a => Fin.ext ?_)
    match a with
    | ⟨0, _⟩ =>
      show win0_1.index t (0 : Fin 2) * 128 + 1 * p.val = win0_4.index t (0 : Fin 2) * 128 + 1 * p.val
      omega
    | ⟨1, _⟩ => show win0_1.index t (1 : Fin 2) * 1 + 1 * 0 = 0; omega
  · -- the row of column norms is resident: column q of the block is column q of the array
    show V m c main_v5 (((cfg0.win 3).blk t).view.emb (ix2 0 q)) = _
    refine congrArg (V m c main_v5 : S1x16384.Idx → EReal) (funext fun a => Fin.ext ?_)
    match a with
    | ⟨0, _⟩ => show win0_3.index t (0 : Fin 2) * 1 + 1 * 0 = 0; omega
    | ⟨1, _⟩ =>
      show win0_3.index t (1 : Fin 2) * 16384 + 1 * q.val = win0_4.index t (1 : Fin 2) * 16384 + 1 * q.val
      omega
  · -- the left operand's band
    show V m c main_v8 (((cfg0.win 0).blk t).view.emb (ix2 p k)) = _
    refine congrArg (V m c main_v8 : S8192x64.Idx → EReal) (funext fun a => Fin.ext ?_)
    match a with
    | ⟨0, _⟩ =>
      show win0_0.index t (0 : Fin 2) * 128 + 1 * p.val = win0_4.index t (0 : Fin 2) * 128 + 1 * p.val
      omega
    | ⟨1, _⟩ => show win0_0.index t (1 : Fin 2) * 64 + 1 * k.val = k.val; omega
  · -- the right operand is resident
    show V m c main_v9 (((cfg0.win 2).blk t).view.emb (ix2 k q)) = _
    refine congrArg (V m c main_v9 : S64x16384.Idx → EReal) (funext fun a => Fin.ext ?_)
    match a with
    | ⟨0, _⟩ => show win0_2.index t (0 : Fin 2) * 64 + 1 * k.val = k.val; omega
    | ⟨1, _⟩ =>
      show win0_2.index t (1 : Fin 2) * 16384 + 1 * q.val = win0_4.index t (1 : Fin 2) * 16384 + 1 * q.val
      omega

/-- An index of the output lies in point `t`'s band iff each coordinate lies in the band's range on its axis. -/
theorem mem_band (t : Fin cfg0.N) (i : S8192x16384.Idx) :
    i ∈ ((cfg0.win 4).blk t).view.set ↔ ∀ a : Fin 2, win0_4.index t a * S128x16384.size a ≤ (i a).val
      ∧ (i a).val < win0_4.index t a * S128x16384.size a + S128x16384.size a := by
  show i ∈ ((View.whole main_v10).slice (win0_4.rect t)).set ↔ _
  rw [View.set_slice_whole, Rect.mem_set_unit]
  exact Iff.rfl

/-- Every index of the output lies in some point's band: row r in band r / 128. -/
theorem covered (i : S8192x16384.Idx) :
    ∃ t : Fin cfg0.N, (cfg0.win 4).flush t = true ∧ i ∈ ((cfg0.win 4).blk t).view.set := by
  have h0 : (i 0).val < 8192 := (i 0).isLt
  have h1 : (i 1).val < 16384 := (i 1).isLt
  have hN : cfg0.N = 64 := N_0
  let t : Fin cfg0.N := ⟨(i 0).val / 128, by rw [hN]; omega⟩
  obtain ⟨_, _, _, _, _, _, _, _, e40, e41⟩ := band_facts t
  have ht : t.val = (i 0).val / 128 := rfl
  refine ⟨t, flush0_4 t, ?_⟩
  rw [mem_band]
  intro a
  match a with
  | ⟨0, _⟩ =>
    show win0_4.index t (0 : Fin 2) * 128 ≤ (i 0).val ∧ (i 0).val < win0_4.index t (0 : Fin 2) * 128 + 128
    omega
  | ⟨1, _⟩ =>
    show win0_4.index t (1 : Fin 2) * 16384 ≤ (i 1).val ∧ (i 1).val < win0_4.index t (1 : Fin 2) * 16384 + 16384
    omega

/-- The output array after the run is `result`. -/
theorem final (c : Dev nD) : (dats m 0 c).arrAt 4 cfg0.N = result m c :=
  (dats m 0 c).arrAt_eq_of_cover 4 (result m c) (fun t _ => flushed_eq m c t) covered

/-- The kernel program's run, read: the output at `result`, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.SqDist.Blocks

end
-- ==== Proof.lean ====
/-
  Pairwise squared Euclidean distances between the 8192 rows of `x` and the 16384 columns of `w`, by the expansion
  ‖x_b − w_n‖² = ‖x_b‖² + ‖w_n‖² − 2 ⟨x_b, w_n⟩.

  The kernel program computes the two arrays of squared norms and the scaled points `−2 · x` before its launch; the launch
  walks 64 bands of 128 rows and writes, in each band, the squared norms plus the matrix product of the scaled band with
  the whole codebook. The reference computes the same two arrays of squared norms, the matrix product of `x` with `w`,
  and subtracts twice that product. Read on the extended reals (where a change of float format is the identity) the two
  results are one function of `x` and `w` as soon as every entry of both is a real number, which is what the precondition
  states: the factor −2 leaves the 64-term sum by distributivity, and subtracting is adding the negative.

  The modules: `SqDistLaw` states the two forms and that law; `Consts` evaluates the three float constants; `Finite` reads
  the precondition; `RefSide` reads the reference's result at an index; `Payload` reads the kernel body's stored value at
  an index; `HostPrefix` reads the four arrays the launch finds; `Blocks` assembles the 64 bands into the output array.
  Here the two results are set side by side and the five claims are closed.
-/
import proofs.«111386_j15418932592734_2_alg».proof.Defs
import proofs.«111386_j15418932592734_2_alg».proof.Proof.Gen.Kernel
import proofs.«111386_j15418932592734_2_alg».proof.Proof.Gen.Kernel.Frame
import proofs.«111386_j15418932592734_2_alg».proof.Proof.Gen.KernelIdeal
import proofs.«111386_j15418932592734_2_alg».proof.Proof.Gen.KernelIdeal.Frame
import proofs.«111386_j15418932592734_2_alg».proof.Proof.Gen.KernelIdeal.Value
import proofs.«111386_j15418932592734_2_alg».proof.Proof.Gen.ReferenceIdeal
import proofs.«111386_j15418932592734_2_alg».proof.Proof.Gen.ReferenceIdeal.Run
import proofs.«111386_j15418932592734_2_alg».proof.Proof.Gen.ReferenceIdeal.Read
import proofs.«111386_j15418932592734_2_alg».proof.Proof.Gen.Pre_finite_inputs
import proofs.«111386_j15418932592734_2_alg».proof.Proof.SqDistLaw
import proofs.«111386_j15418932592734_2_alg».proof.Proof.Consts
import proofs.«111386_j15418932592734_2_alg».proof.Proof.Finite
import proofs.«111386_j15418932592734_2_alg».proof.Proof.RefSide
import proofs.«111386_j15418932592734_2_alg».proof.Proof.HostPrefix
import proofs.«111386_j15418932592734_2_alg».proof.Proof.Blocks
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel program was rewritten on the way to the extended reals. -/
theorem preserves : Cert.preserves_Kernel_KernelIdeal := trivial

/-- The two programs end with the same distances: the kernel's output is the squared norms plus the inner product with
    `−2 · x` (`Blocks.run`), the reference's the squared norms minus `2` times the inner product with `x`
    (`RefSide.result_eq`); the squared norms are computed by the same operations on both sides, and the two inner-product
    terms agree on real inputs (`SqDist.folded_eq_expanded`). -/
theorem algebraic : Cert.algebraic_KernelIdeal_ReferenceIdeal := by
  intro m ρ m' ρ' hpre hagree
  refine ⟨fun c => Cert.SqDist.Blocks.result m c, Cert.SqDist.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hw⟩ := Cert.SqDist.Finite.real_of_pre _ _ (hpre c)
  rw [Cert.ReferenceIdeal.Read.val_main_v12_eq, Cert.SqDist.RefSide.result_eq, (hagree c).1, (hagree c).2]
  show _ = Cert.SqDist.folded (Cert.KernelIdeal.Gen.V m c Cert.KernelIdeal.main_v2)
    (Cert.KernelIdeal.Gen.V m c Cert.KernelIdeal.main_v5) (Cert.KernelIdeal.Gen.V m c Cert.KernelIdeal.main_v8)
    (Cert.KernelIdeal.Gen.V m c Cert.KernelIdeal.main_v9)
  rw [Cert.SqDist.HostPrefix.scaled, Cert.SqDist.HostPrefix.codebook, Cert.SqDist.HostPrefix.rowNorms,
    Cert.SqDist.HostPrefix.colNorms, Cert.SqDist.Consts.ofBits_neg_two, Cert.SqDist.Consts.ofBits_two]
  exact (Cert.SqDist.folded_eq_expanded _ _ _ _ hx hw).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
